-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S640000 : Shape := ⟨1, ![640000]⟩
abbrev S128x128 : Shape := ⟨2, ![128, 128]⟩
abbrev S128 : Shape := ⟨1, ![128]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S40000x128 .f32) (main_arg1 : IVec S640000 32) (main_arg2 : IVec S640000 32) (main_arg3 : FVec F S128x128 .f32) (main_arg4 : FVec F S128 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S40000x128 : Shape := ⟨2, ![40000, 128]⟩
abbrev S640000 : Shape := ⟨1, ![640000]⟩
abbrev S128x128 : Shape := ⟨2, ![128, 128]⟩
abbrev S128 : Shape := ⟨1, ![128]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩
abbrev S4000x128 : Shape := ⟨2, ![4000, 128]⟩

abbrev nBuf : Space → Nat
  | .hbm => 20
  | .vmem => 6
  | .smem => 0
  | _ => 0

abbrev bufTy : (tb : Table) → Fin (tcTables nBuf tb) → BufTy
  | .hbm, ⟨0, _⟩ => ⟨S40000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128, .f32⟩
  | .hbm, ⟨5, _⟩ => ⟨S_, .i32⟩
  | .hbm, ⟨6, _⟩ => ⟨S640000, .i32⟩
  | .hbm, ⟨7, _⟩ => ⟨S640000, .i1⟩
  | .hbm, ⟨8, _⟩ => ⟨S_, .i32⟩
  | .hbm, ⟨9, _⟩ => ⟨S640000, .i32⟩
  | .hbm, ⟨10, _⟩ => ⟨S640000, .i32⟩
  | .hbm, ⟨11, _⟩ => ⟨S640000, .i32⟩
  | .hbm, ⟨12, _⟩ => ⟨S640000x1, .i32⟩
  | .hbm, ⟨13, _⟩ => ⟨S640000x128, .f32⟩
  | .hbm, ⟨14, _⟩ => ⟨S_, .f32⟩
  | .hbm, ⟨15, _⟩ => ⟨S40000x128, .f32⟩
  | .hbm, ⟨16, _⟩ => ⟨S640000x1, .i32⟩
  | .hbm, ⟨17, _⟩ => ⟨S40000x128, .f32⟩
  | .hbm, ⟨18, _⟩ => ⟨S1x128, .f32⟩
  | .hbm, ⟨19, _⟩ => ⟨S40000x128, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S1x128, .f32⟩
  | .local _ .vmem, ⟨4, _⟩ => ⟨S4000x128, .f32⟩
  | .local _ .vmem, ⟨5, _⟩ => ⟨S4000x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S4000x128_S128x128_S4000x128_1_1_0_0_n_n_wf : DotDims.WF S4000x128 S128x128 S4000x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S40000x128.size a
  hwx0_0 : ∀ i : grid0.Coords, EltTy.bits .f32 = 32 ∨ (Rect.block (s := S40000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S40000x128.size a
  hwx0_3 : ∀ i : grid0.Coords, EltTy.bits .f32 = 32 ∨ (Rect.block (s := S40000x128) S4000x128.size (cc0_transform_3 i) (hinb0_3 i)).WholeWords (EltTy.packing .f32)

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S4000x128_S128x128_S4000x128_1_1_0_0_n_n : DotDims S4000x128 S128x128 S4000x128 where
  lhsContracting := [1]
  rhsContracting := [1]
  lhsNonContracting := [0]
  rhsNonContracting := [0]
  lhsBatch := []
  rhsBatch := []
  wf := dot_S4000x128_S128x128_S4000x128_1_1_0_0_n_n_wf

abbrev win0_0 : Pipeline.Window sig grid0 :=
  Pipeline.Window.ofSpec (Memref.whole main_v9) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S40000x128 : Shape := ⟨2, ![40000, 128]⟩
abbrev S640000 : Shape := ⟨1, ![640000]⟩
abbrev S128x128 : Shape := ⟨2, ![128, 128]⟩
abbrev S128 : Shape := ⟨1, ![128]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩

abbrev nBuf : Space → Nat
  | .hbm => 23
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128, .f32⟩
  | .hbm, ⟨5, _⟩ => ⟨S_, .i32⟩
  | .hbm, ⟨6, _⟩ => ⟨S640000, .i32⟩
  | .hbm, ⟨7, _⟩ => ⟨S640000, .i1⟩
  | .hbm, ⟨8, _⟩ => ⟨S_, .i32⟩
  | .hbm, ⟨9, _⟩ => ⟨S640000, .i32⟩
  | .hbm, ⟨10, _⟩ => ⟨S640000, .i32⟩
  | .hbm, ⟨11, _⟩ => ⟨S640000, .i32⟩
  | .hbm, ⟨12, _⟩ => ⟨S640000x1, .i32⟩
  | .hbm, ⟨13, _⟩ => ⟨S640000x128, .f32⟩
  | .hbm, ⟨14, _⟩ => ⟨S_, .f32⟩
  | .hbm, ⟨15, _⟩ => ⟨S40000x128, .f32⟩
  | .hbm, ⟨16, _⟩ => ⟨S640000x1, .i32⟩
  | .hbm, ⟨17, _⟩ => ⟨S40000x128, .f32⟩
  | .hbm, ⟨18, _⟩ => ⟨S128x128, .f32⟩
  | .hbm, ⟨19, _⟩ => ⟨S40000x128, .f32⟩
  | .hbm, ⟨20, _⟩ => ⟨S1x128, .f32⟩
  | .hbm, ⟨21, _⟩ => ⟨S40000x128, .f32⟩
  | .hbm, ⟨22, _⟩ => ⟨S40000x128, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  transposes_S128x128_S128x128_1_0 : S128x128.Transposes [1, 0] S128x128
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S40000x128_S128x128_S40000x128_1_0_0_1_n_n_wf : DotDims.WF S40000x128 S128x128 S40000x128 [1] [0] [0] [1] [] []

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf

class Facts : Prop extends Facts₀ where

variable [Facts]
-- ==== Proof.LibBiasRow.lean ====
/-
  A bias vector laid along the rows, and a scalar spread over an array, read at an index: general lemmas.

  A vector `[b]` shape-cast to the row `[1, b]` keeps its entries in order, so the row at `(0, q)` is the vector at
  `q`; that row broadcast to `[a, b]` (a vector broadcast: trailing axes aligned, the unit axis repeated) reads, at
  `(p, q)`, the vector at `q` again. A rank-0 array broadcast to any shape reads its one entry everywhere.
-/
import Idealize.ShloMosaic.Lib.Pipeline.Value
import Idealize.ShloMosaic.Lib.ValueIdx

namespace BiasRead

open Idealize.ShloMosaic Idealize.ShloMosaic.ValueIdx

/-- A vector `[b]` shape-cast to the row `[1, b]` reads, at `(u, q)`, the vector at `q`. -/
theorem vector_as_row_apply {α : Type} {b : ℕ} (x : (⟨1, ![b]⟩ : Shape).Idx → α)
    (h : (⟨1, ![b]⟩ : Shape).ShapeCasts ⟨2, ![1, b]⟩) (u : Fin 1) (q : Fin b) :
    shapeCast ⟨2, ![1, b]⟩ x h (ix2 u q) = x (ix1 q) := by
  refine shapeCast_apply x h (ix2 u q) (ix1 q) ?_
  rw [Shape.rowMajor_val_one, Shape.rowMajor_val_two]
  show q.val = u.val * b + q.val
  have hu : u.val = 0 := by have := u.isLt; omega
  rw [hu, Nat.zero_mul, Nat.zero_add]

/-- A row `[1, b]` broadcast down to `[a, b]` (trailing axes aligned) reads, at `(p, q)`, the row at `(0, q)`. -/
theorem row_down_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- A bias vector `[b]` made a row and broadcast down to `[a, b]` reads, at `(p, q)`, the vector at `q`. -/
theorem bias_rows_apply {α : Type} {a b : ℕ} (x : (⟨1, ![b]⟩ : Shape).Idx → α)
    (h₁ : (⟨1, ![b]⟩ : Shape).ShapeCasts ⟨2, ![1, b]⟩) (h₂ : (⟨2, ![1, b]⟩ : Shape).Broadcasts ⟨2, ![a, b]⟩)
    (p : Fin a) (q : Fin b) :
    broadcastTo ⟨2, ![a, b]⟩ (shapeCast ⟨2, ![1, b]⟩ x h₁) h₂ (ix2 p q) = x (ix1 q) :=
  (row_down_apply _ h₂ p q).trans (vector_as_row_apply x h₁ 0 q)

/-- A rank-0 array broadcast to any shape reads its one entry at every index. -/
theorem scalar_apply {α : Type} {t : Shape} (x : (⟨0, ![]⟩ : Shape).Idx → α)
    (h : (⟨0, ![]⟩ : Shape).BroadcastsInDim t ![]) (j : t.Idx) (k : (⟨0, ![]⟩ : Shape).Idx) :
    broadcastInDim t ![] h x j = x k :=
  broadcastInDim_apply ![] h x j k fun ax => ax.elim0

end BiasRead
-- ==== Proof.RegionEntry.lean ====
/-
  The arrays the kernel's one region finds when it is entered.

  Before the region the program gathers, for every edge, the feature row of the edge's source node (a negative source
  index first moved up by the number of nodes) and adds each gathered row into the row of the edge's destination
  node, starting from zeros: the aggregated features. It also re-lays the bias vector as a row of shape [1, 128].
  The aggregation is named here and never opened: the reference computes it by the same operations, so only its
  name is compared.
-/
import proofs.«127670_j16449724744840_2_alg».proof.Proof.Gen.KernelIdeal.Frame
import proofs.«127670_j16449724744840_2_alg».proof.Proof.LibBiasRow
import Idealize.ShloMosaic.Lib.StableHlo.Run
import Idealize.ShloMosaic.Lib.ValueIdx

noncomputable section

namespace Cert.KernelIdeal.RegionEntry

open Cert.KernelIdeal Cert.KernelIdeal.Gen Idealize.ShloMosaic Idealize.ShloMosaic.TcCoe Idealize.SL.Sem
open Idealize.ShloMosaic.StableHlo Idealize.ShloMosaic.ValueIdx

/-- The aggregated node features: the rows of `x` gathered at the source indices `src` (a negative index moved up by
    40000), each added into the row its destination index `dst` names, over zeros. -/
def aggregate (x : (⟨S40000x128, .f32⟩ : BufTy).Contents (Elt Ideal)) (src dst : (⟨S640000, .i32⟩ : BufTy).Contents (Elt Ideal)) :
    (⟨S40000x128, .f32⟩ : BufTy).Contents (Elt Ideal) :=
  Host.scatterAdd scatter_S40000x128_S640000x1_S640000x128_1_0_0_1
    (broadcastInDim S40000x128 ![] bcast_S_S40000x128 (constant (F := Ideal) S_ .f32 0x00000000#32))
    (broadcastInDim S640000x1 ![0] bcast_S640000_S640000x1_0 dst)
    (Host.gather gather_S40000x128_S640000x1_S640000x128_1_0_n_n_0_1_1128 x
      (broadcastInDim S640000x1 ![0] bcast_S640000_S640000x1_0
        (select (cmpi .slt src (broadcastInDim S640000 ![] bcast_S_S640000 (constantI S_ 32 0#32)))
          (addi src (broadcastInDim S640000 ![] bcast_S_S640000 (constantI S_ 32 40000#32))) src)))

variable (m : (ℓ : Loc nD τ sig) → Buf (Elt Ideal) ℓ)

/-- The region's first window reads the aggregated features of the argument arrays. -/
theorem aggregated (c : Dev nD) :
    (V m c main_v9 : S40000x128.Idx → EReal)
      = aggregate (m ((c.tc : Thread nD τ).loc main_arg0)) (m ((c.tc : Thread nD τ).loc main_arg1))
          (m ((c.tc : Thread nD τ).loc main_arg2)) := by
  dsimp only [Gen.V, Gen.hostOps0]
  after_results
  rfl

/-- The region's third window reads the bias vector re-laid as a row. -/
theorem bias_row (c : Dev nD) :
    (V m c main_v10 : S1x128.Idx → EReal)
      = shapeCast S1x128 (m ((c.tc : Thread nD τ).loc main_arg4)) shapeCasts_S128_S1x128 := by
  dsimp only [Gen.V, Gen.hostOps0]
  after_results
  rfl

/-- So that row at `(0, q)` is the bias at `q`. -/
theorem bias_row_apply (c : Dev nD) (q : Fin 128) :
    (V m c main_v10 : S1x128.Idx → EReal) (ix2 (0 : Fin 1) q) = m ((c.tc : Thread nD τ).loc main_arg4) (ix1 q) := by
  rw [bias_row]
  exact BiasRead.vector_as_row_apply _ _ 0 q

end Cert.KernelIdeal.RegionEntry

end
-- ==== Proof.Projection.lean ====
/-
  The linear projection that ends a graph-convolution layer, index by index on the extended reals.

  Both programs first aggregate, for every node, the features of the nodes that send it an edge; call the aggregated
  array `H`, of 40000 rows of 128 features. The layer's result is `H · Wᵀ + b`: entry `(p, q)` is row `p` of `H` against
  row `q` of the 128 × 128 weights `W`, plus entry `q` of the bias `b`. This file states that function once, so that
  each program's result can be shown to be it; no property of the extended reals beyond the shape of the sum is used.
-/
import Idealize.ShloMosaic.PureOps.Ideal
import Idealize.ShloMosaic.Lib.ValueIdx

noncomputable section

namespace Cert.Projection

open Idealize.ShloMosaic Idealize.ShloMosaic.ValueIdx

/-- Entry `(p, q)` of the projected features: the sum over the 128 input features `e` of `H (p, e) * W (q, e)`, plus
    `b q`. -/
def project (H : FVec Ideal (⟨2, ![40000, 128]⟩ : Shape) .f32) (W : FVec Ideal (⟨2, ![128, 128]⟩ : Shape) .f32)
    (b : FVec Ideal (⟨1, ![128]⟩ : Shape) .f32) : FVec Ideal (⟨2, ![40000, 128]⟩ : Shape) .f32 :=
  fun i => (∑ e : Fin 128, H (ix2 (i 0) e) * W (ix2 (i 1) e)) + b (ix1 (i 1))

/-- The projection read at explicit coordinates. -/
theorem project_apply (H : FVec Ideal (⟨2, ![40000, 128]⟩ : Shape) .f32) (W : FVec Ideal (⟨2, ![128, 128]⟩ : Shape) .f32)
    (b : FVec Ideal (⟨1, ![128]⟩ : Shape) .f32) (p : Fin 40000) (q : Fin 128) :
    project H W b (ix2 p q) = (∑ e : Fin 128, H (ix2 p e) * W (ix2 q e)) + b (ix1 q) := rfl

end Cert.Projection

end
-- ==== Proof.LibMatmulNT.lean ====
/-
  A matrix product against a transposed right factor, read at an index at the exact extended reals: a general lemma.

  With dimension numbers that contract axis 1 of an `[M, K]` left factor with axis 1 of an `[N, K]` right factor (no
  batch axes; the result `[M, N]`), and a zero accumulator, entry `(p, q)` of the product is the sum over `e` of
  `lhs (p, e) * rhs (q, e)`: row `p` of the left factor against row `q` of the right one.
-/
import Idealize.ShloMosaic.PureOps.Ideal
import Idealize.ShloMosaic.PureOps.Ideal.Laws
import Idealize.ShloMosaic.Lib.ValueIdx

noncomputable section

namespace Cert.LibMatmulNT

open Idealize.ShloMosaic Idealize.ShloMosaic.ValueIdx

variable {M N K : ℕ}

/-- The dimension numbers "rows against rows": contract axis 1 with axis 1, keep axis 0 of each factor, no batch. -/
abbrev dims (wf : DotDims.WF (⟨2, ![M, K]⟩ : Shape) (⟨2, ![N, K]⟩ : Shape) (⟨2, ![M, N]⟩ : Shape) [1] [1] [0] [0] [] []) :
    DotDims (⟨2, ![M, K]⟩ : Shape) (⟨2, ![N, K]⟩ : Shape) (⟨2, ![M, N]⟩ : Shape) where
  lhsContracting := [1]
  rhsContracting := [1]
  lhsNonContracting := [0]
  rhsNonContracting := [0]
  lhsBatch := []
  rhsBatch := []
  wf := wf

variable (wf : DotDims.WF (⟨2, ![M, K]⟩ : Shape) (⟨2, ![N, K]⟩ : Shape) (⟨2, ![M, N]⟩ : Shape) [1] [1] [0] [0] [] [])

/-- The left index keeps the result's row coordinate on its own row axis. -/
theorem lhsIdx_row (j : (⟨2, ![M, N]⟩ : Shape).Idx) (k : (dims wf).contr.Idx) :
    ((dims wf).lhsIdx j k 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The right index puts the result's column coordinate on its own row axis. -/
theorem rhsIdx_row (j : (⟨2, ![M, N]⟩ : Shape).Idx) (k : (dims wf).contr.Idx) :
    ((dims wf).rhsIdx j k 0).val = (j 1).val := by
  unfold DotDims.rhsIdx
  rw [dif_neg (show ¬(0 : Fin (⟨2, ![N, K]⟩ : Shape).rank) ∈ (dims wf).rhsBatch from List.not_mem_nil),
    dif_pos (show (0 : Fin (⟨2, ![N, K]⟩ : Shape).rank) ∈ (dims wf).rhsNonContracting from List.mem_singleton.mpr rfl)]
  rfl

/-- The left index at result `(p, q)` and contraction position `e` is `(p, e)`. -/
theorem lhsIdx_eq (p : Fin M) (q : Fin N) (e : Fin K) :
    (dims wf).lhsIdx (ix2 p q) ((contrEquiv1 (dims wf) K rfl rfl).symm e) = ix2 p e := by
  have he := contrEquiv1_symm_val (dims wf) K rfl rfl e
  funext a
  apply Fin.ext
  match a with
  | ⟨0, _⟩ => exact lhsIdx_row wf _ _
  | ⟨1, _⟩ => exact ((dims wf).lhsIdx_val_of_single rfl _ _).trans he

/-- The right index at result `(p, q)` and contraction position `e` is `(q, e)`. -/
theorem rhsIdx_eq (p : Fin M) (q : Fin N) (e : Fin K) :
    (dims wf).rhsIdx (ix2 p q) ((contrEquiv1 (dims wf) K rfl rfl).symm e) = ix2 q e := by
  have he := contrEquiv1_symm_val (dims wf) K rfl rfl e
  funext a
  apply Fin.ext
  match a with
  | ⟨0, _⟩ => exact rhsIdx_row wf _ _
  | ⟨1, _⟩ => exact ((dims wf).rhsIdx_val_of_single rfl _ _).trans he

/-- Entry `(p, q)` of the product into a zero accumulator: row `p` of `lhs` against row `q` of `rhs`. -/
theorem matmul_zero_apply {φ₁ φ₂ : FTy} (prec : Option ContractPrecision)
    (lhs : FVec Ideal (⟨2, ![M, K]⟩ : Shape) φ₁) (rhs : FVec Ideal (⟨2, ![N, K]⟩ : Shape) φ₂) (p : Fin M) (q : Fin N) :
    FloatOps.matmul (dims wf) prec lhs rhs (constant (F := Ideal) (⟨2, ![M, N]⟩ : Shape) .f32 0x00000000#32) (ix2 p q)
      = ∑ e : Fin K, lhs (ix2 p e) * rhs (ix2 q e) := by
  rw [Ideal.matmul_constant_zero_apply, ← Equiv.sum_comp (contrEquiv1 (dims wf) K rfl rfl).symm]
  refine Finset.sum_congr rfl fun e _ => ?_
  rw [lhsIdx_eq wf p q e, rhsIdx_eq wf p q e]

end Cert.LibMatmulNT

end
-- ==== Proof.BlockProduct.lean ====
/-
  What the kernel's body computes for one block of 4000 rows, read at an index.

  The body loads a block `h` of 4000 rows of aggregated features, the whole weights `w` and the bias as a row `r` of
  shape [1, 128]; it rounds `h` and `w` to a narrower float format (the identity on the extended reals), multiplies
  `h` against the ROWS of `w` into a zero accumulator, and adds the bias row repeated down the 4000 rows. So entry
  `(p, q)` of the block it stores is the sum over `e` of `h (p, e) * w (q, e)`, plus `r (0, q)`.
-/
import proofs.«127670_j16449724744840_2_alg».proof.Proof.Gen.KernelIdeal.Skeleton
import proofs.«127670_j16449724744840_2_alg».proof.Proof.LibMatmulNT
import proofs.«127670_j16449724744840_2_alg».proof.Proof.LibBiasRow
import Idealize.ShloMosaic.Lib.Pipeline.Value
import Idealize.ShloMosaic.Lib.ValueIdx

noncomputable section

namespace Cert.KernelIdeal.BlockProduct

open Cert.KernelIdeal Cert.KernelIdeal.Gen Idealize.ShloMosaic Idealize.ShloMosaic.ValueIdx

/-- Entry `(p, q)` of the stored block: row `p` of the feature block against row `q` of the weights, plus the bias row
    at column `q`. -/
theorem payload_apply (h : Vec Ideal S4000x128 .f32) (w : Vec Ideal S128x128 .f32) (r : Vec Ideal S1x128 .f32)
    (p : Fin 4000) (q : Fin 128) :
    k0_pay1 (F := Ideal) h w r (ix2 p q) = (∑ e : Fin 128, h (ix2 p e) * w (ix2 q e)) + r (ix2 (0 : Fin 1) q) := by
  unfold k0_pay1
  rw [shapeCast_self, shapeCast_self, addf_apply]
  congr 1
  · exact Cert.LibMatmulNT.matmul_zero_apply Facts₀.dot_S4000x128_S128x128_S4000x128_1_1_0_0_n_n_wf none _ _ p q
  · exact BiasRead.row_down_apply _ _ p q

end Cert.KernelIdeal.BlockProduct

end
-- ==== Proof.RowBlocks.lean ====
/-
  From blocks of rows to the whole result array.

  The region runs at 10 points. At point `t` the body sees rows `4000 t … 4000 t + 3999` of the aggregated features
  (all 128 columns), the whole weights and the whole bias row, and writes back rows `4000 t … 4000 t + 3999` of the
  result. Entry `(p, q)` of what it writes is, by the body's arithmetic, row `4000 t + p` of the aggregated features
  against row `q` of the weights plus bias `q`: the projection at `(4000 t + p, q)`. Every row `r` of the result lies
  in exactly the block of point `r / 4000`, so the ten blocks cover the array and the array after the run IS the
  projection.
-/
import proofs.«127670_j16449724744840_2_alg».proof.Proof.Gen.KernelIdeal.Value
import proofs.«127670_j16449724744840_2_alg».proof.Proof.Projection
import proofs.«127670_j16449724744840_2_alg».proof.Proof.BlockProduct
import proofs.«127670_j16449724744840_2_alg».proof.Proof.RegionEntry

noncomputable section

namespace Cert.KernelIdeal.RowBlocks

open Cert.KernelIdeal Cert.KernelIdeal.Gen Cert.Projection
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The body's accesses start at offset zero on both axes. -/
theorem zero_offsets : (![0, 0] : Fin 2 → Nat) = fun _ => 0 := funext fun a => by fin_cases a <;> rfl

/-- The printed index maps, decided over the ten points: the feature window moves down the rows with the result
    window, both at column block 0; the weights and the bias row stay at block (0, 0). -/
theorem index_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 :=
  (by decide +kernel : ∀ t : Fin grid0.N, _)

/-- Each of the ten row blocks of the result is some point's. -/
theorem index_onto : ∀ k : Fin 10, ∃ t : Fin cfg0.N, win0_3.index t = ![k.val, 0] :=
  (by decide +kernel : ∀ k : Fin 10, ∃ t : Fin grid0.N, win0_3.index t = ![k.val, 0])

/-! ## The input blocks at a point -/

/-- The feature window's block at point `t`, at `y`, is the aggregated features at row `4000 · (block index) + y₀`,
    column `y₁`. -/
theorem features_block_apply (c : Dev nD) (t : Fin cfg0.N) (y : S4000x128.Idx) (k : S40000x128.Idx)
    (hk0 : (k 0).val = win0_3.index t (0 : Fin 2) * 4000 + (y 0).val) (hk1 : (k 1).val = (y 1).val) :
    (iblk m c 0 t : Vec Ideal S4000x128 .f32) y = (V m c main_v9 : S40000x128.Idx → EReal) k := by
  obtain ⟨e00, e01, -, -, -, -, -⟩ := index_facts t
  unfold iblk
  rw [View.read_apply]
  show (V m c main_v9 : S40000x128.Idx → EReal) _ = (V m c main_v9 : S40000x128.Idx → EReal) k
  congr 1
  funext a
  apply Fin.ext
  match a with
  | ⟨0, _⟩ => show win0_0.index t (0 : Fin 2) * 4000 + 1 * (y 0).val = (k 0).val; rw [e00, hk0]; omega
  | ⟨1, _⟩ => show win0_0.index t (1 : Fin 2) * 128 + 1 * (y 1).val = (k 1).val; rw [e01, hk1]; omega

/-- The weights window's block at every point is the whole weights. -/
theorem weights_block_apply (c : Dev nD) (t : Fin cfg0.N) (y : S128x128.Idx) :
    (iblk m c 1 t : Vec Ideal S128x128 .f32) y = (V m c main_arg3 : S128x128.Idx → EReal) y := by
  obtain ⟨-, -, e10, e11, -, -, -⟩ := index_facts t
  unfold iblk
  rw [View.read_apply]
  show (V m c main_arg3 : S128x128.Idx → EReal) _ = (V m c main_arg3 : S128x128.Idx → EReal) y
  congr 1
  funext a
  apply Fin.ext
  match a with
  | ⟨0, _⟩ => show win0_1.index t (0 : Fin 2) * 128 + 1 * (y 0).val = (y 0).val; rw [e10]; omega
  | ⟨1, _⟩ => show win0_1.index t (1 : Fin 2) * 128 + 1 * (y 1).val = (y 1).val; rw [e11]; omega

/-- The bias window's block at every point is the whole bias row. -/
theorem bias_block_apply (c : Dev nD) (t : Fin cfg0.N) (y : S1x128.Idx) :
    (iblk m c 2 t : Vec Ideal S1x128 .f32) y = (V m c main_v10 : S1x128.Idx → EReal) y := by
  obtain ⟨-, -, -, -, e20, e21, -⟩ := index_facts t
  unfold iblk
  rw [View.read_apply]
  show (V m c main_v10 : S1x128.Idx → EReal) _ = (V m c main_v10 : S1x128.Idx → EReal) y
  congr 1
  funext a
  apply Fin.ext
  match a with
  | ⟨0, _⟩ => show win0_2.index t (0 : Fin 2) * 1 + 1 * (y 0).val = (y 0).val; rw [e20]; omega
  | ⟨1, _⟩ => show win0_2.index t (1 : Fin 2) * 128 + 1 * (y 1).val = (y 1).val; rw [e21]; omega

/-! ## One entry of one block -/

/-- The body's arithmetic at `y` is the projection at `k`, for ANY block contents that agree with the arrays where the
    entry looks: the feature block's row `y₀` is row `k₀` of `H`, the weight block's row `y₁` is row `k₁` of `W`, and the
    bias row at column `y₁` is `b` at `k₁`. -/
theorem block_entry (H : FVec Ideal S40000x128 .f32) (W : FVec Ideal S128x128 .f32) (b : FVec Ideal S128 .f32)
    (h : Vec Ideal S4000x128 .f32) (w : Vec Ideal S128x128 .f32) (r : Vec Ideal S1x128 .f32)
    (y : S4000x128.Idx) (k : S40000x128.Idx)
    (hh : ∀ e : Fin 128, h (ix2 (y 0) e) = H (ix2 (k 0) e))
    (hw : ∀ e : Fin 128, w (ix2 (y 1) e) = W (ix2 (k 1) e))
    (hr : r (ix2 (0 : Fin 1) (y 1)) = b (ix1 (k 1))) :
    k0_pay1 (F := Ideal) h w r y = project H W b k :=
  calc k0_pay1 (F := Ideal) h w r y
      = k0_pay1 (F := Ideal) h w r (ix2 (y 0) (y 1)) := congrArg _ (eq_ix2 y)
    _ = (∑ e : Fin 128, h (ix2 (y 0) e) * w (ix2 (y 1) e)) + r (ix2 (0 : Fin 1) (y 1)) :=
        BlockProduct.payload_apply h w r (y 0) (y 1)
    _ = (∑ e : Fin 128, H (ix2 (k 0) e) * W (ix2 (k 1) e)) + b (ix1 (k 1)) := by
        rw [hr]
        congr 1
        exact Finset.sum_congr rfl fun e _ => by rw [hh e, hw e]
    _ = project H W b (ix2 (k 0) (k 1)) := (project_apply H W b (k 0) (k 1)).symm
    _ = project H W b k := congrArg _ (eq_ix2 k).symm

/-! ## What a point writes back, the cover, the array -/

/-- WHAT POINT `t` WRITES BACK is block `t` of the projection of the arrays as the region finds them. -/
theorem flushed_eq (c : Dev nD) (t : Fin cfg0.N) :
    (dats m 0 c).flushed 3 t = ((cfg0.win 3).blk t).view.read (Elt Ideal)
      (project (V m c main_v9) (V m c main_arg3) (m ((c.tc : Thread nD τ).loc main_arg4))) := by
  rw [Value.flushed3]
  unfold out0_3
  rw [View.canon_unit_zero zero_offsets]
  simp only [View.ld_unit_zero (S := S4000x128) zero_offsets, View.ld_unit_zero (S := S128x128) zero_offsets,
    View.ld_unit_zero (S := S1x128) zero_offsets]
  obtain ⟨-, -, -, -, -, -, e31⟩ := index_facts t
  funext j
  show k0_pay1 (F := Ideal) (iblk m c 0 t) (iblk m c 1 t) (iblk m c 2 t) j
    = project (V m c main_v9) (V m c main_arg3) (m ((c.tc : Thread nD τ).loc main_arg4)) (((cfg0.win 3).blk t).view.emb j)
  have hk1 : ((((cfg0.win 3).blk t).view.emb j) 1).val = (j 1).val := by
    show win0_3.index t (1 : Fin 2) * 128 + 1 * (j 1).val = (j 1).val
    rw [e31]; omega
  refine block_entry (V m c main_v9) (V m c main_arg3) (m ((c.tc : Thread nD τ).loc main_arg4))
    (iblk m c 0 t) (iblk m c 1 t) (iblk m c 2 t) j (((cfg0.win 3).blk t).view.emb j) (fun e => ?_) (fun e => ?_) ?_
  · refine features_block_apply m c t (ix2 (j 0) e) (ix2 ((((cfg0.win 3).blk t).view.emb j) 0) e) ?_ rfl
    show win0_3.index t (0 : Fin 2) * 4000 + 1 * (j 0).val = win0_3.index t (0 : Fin 2) * 4000 + (j 0).val
    omega
  · rw [weights_block_apply m c t (ix2 (j 1) e)]
    exact congrArg _ (congrArg (fun a => ix2 a e) (Fin.ext hk1.symm))
  · rw [bias_block_apply m c t (ix2 (0 : Fin 1) (j 1)), RegionEntry.bias_row_apply m c (j 1)]
    exact congrArg _ (congrArg ix1 (Fin.ext hk1.symm))

/-- An index of the result is in point `t`'s block iff each coordinate is in the block's range on its axis. -/
theorem mem_block (t : Fin cfg0.N) (i : S40000x128.Idx) :
    i ∈ ((cfg0.win 3).blk t).view.set ↔ ∀ a : Fin 2, win0_3.index t a * S4000x128.size a ≤ (i a).val
      ∧ (i a).val < win0_3.index t a * S4000x128.size a + S4000x128.size a := by
  show i ∈ ((View.whole main_v11).slice (win0_3.rect t)).set ↔ _
  rw [View.set_slice_whole, Rect.mem_set_unit]
  exact Iff.rfl

/-- Every index of the result lies in the block of the point that owns its row: row `r` belongs to point `r / 4000`. -/
theorem covered (i : S40000x128.Idx) :
    ∃ t : Fin cfg0.N, (cfg0.win 3).flush t = true ∧ i ∈ ((cfg0.win 3).blk t).view.set := by
  have hi0 : (i 0).val < 40000 := (i 0).isLt
  have hi1 : (i 1).val < 128 := (i 1).isLt
  obtain ⟨t, ht⟩ := index_onto ⟨(i 0).val / 4000, by omega⟩
  have q0 : win0_3.index t (0 : Fin 2) = (i 0).val / 4000 := congrFun ht 0
  have q1 : win0_3.index t (1 : Fin 2) = 0 := congrFun ht 1
  refine ⟨t, flush0_3 t, ?_⟩
  rw [mem_block]
  intro a
  match a with
  | ⟨0, _⟩ =>
    show win0_3.index t (0 : Fin 2) * 4000 ≤ (i 0).val ∧ (i 0).val < win0_3.index t (0 : Fin 2) * 4000 + 4000
    omega
  | ⟨1, _⟩ =>
    show win0_3.index t (1 : Fin 2) * 128 ≤ (i 1).val ∧ (i 1).val < win0_3.index t (1 : Fin 2) * 128 + 128
    omega

/-- THE RESULT ARRAY after the run is the projection of the aggregated features of the argument arrays. -/
theorem result (c : Dev nD) :
    (dats m 0 c).arrAt 3 cfg0.N
      = project (RegionEntry.aggregate (m ((c.tc : Thread nD τ).loc main_arg0)) (m ((c.tc : Thread nD τ).loc main_arg1))
          (m ((c.tc : Thread nD τ).loc main_arg2)))
        (m ((c.tc : Thread nD τ).loc main_arg3)) (m ((c.tc : Thread nD τ).loc main_arg4)) := by
  rw [(dats m 0 c).arrAt_eq_of_cover 3 _ (fun t _ => flushed_eq m c t) covered, RegionEntry.aggregated m c, V_main_arg3 m c]

/-! ## The run, read -/

/-- The kernel's run with its result array named: the projection of the aggregated features; the arguments unchanged. -/
theorem run : θ_run defs (onTc (τ := τ) (main (F := Ideal))) ⟨m, fun _ => 0, ρ⟩ fun r => ∀ c : Dev nD,
      r.2.mem ((c.tc : Thread nD τ).loc main_v11)
        = project (RegionEntry.aggregate (m ((c.tc : Thread nD τ).loc main_arg0)) (m ((c.tc : Thread nD τ).loc main_arg1))
            (m ((c.tc : Thread nD τ).loc main_arg2)))
          (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (result m c), (h c).2⟩) (Value.run_blocks m ρ)

end Cert.KernelIdeal.RowBlocks

end
-- ==== Proof.ReferenceProjection.lean ====
/-
  The reference's result is the projection of ITS aggregated features.

  The reference transposes the weights and contracts the features' axis 1 with the transposed weights' axis 0, then
  adds the bias broadcast down the rows. Read at `(p, q)`: the sum over `e` of `H (p, e) * Wᵀ (e, q)`, and `Wᵀ (e, q)`
  is `W (q, e)`; the bias made a row and repeated reads `b q`.
-/
import proofs.«127670_j16449724744840_2_alg».proof.Proof.Gen.ReferenceIdeal.Read
import proofs.«127670_j16449724744840_2_alg».proof.Proof.Projection

noncomputable section

namespace Cert.ReferenceIdeal.RefValue

open Cert.ReferenceIdeal Cert.ReferenceIdeal.Read Cert.Projection Idealize.ShloMosaic Idealize.ShloMosaic.ValueIdx

/-- The reference's last stage, as a function of the arguments, is the projection of its aggregation stage. -/
theorem result_eq (x : (⟨S40000x128, .f32⟩ : BufTy).Contents (Elt Ideal)) (src dst : (⟨S640000, .i32⟩ : BufTy).Contents (Elt Ideal))
    (W : (⟨S128x128, .f32⟩ : BufTy).Contents (Elt Ideal)) (b : (⟨S128, .f32⟩ : BufTy).Contents (Elt Ideal)) :
    val_main_v14 (F := Ideal) x src dst W b = project (val_main_v9 (F := Ideal) x src dst) W b := by
  funext i
  obtain ⟨p, q, rfl⟩ : ∃ (p : Fin 40000) (q : Fin 128), i = ix2 p q := ⟨i 0, i 1, eq_ix2 i⟩
  have hl : ∀ e : Fin 128, lidx_main_v11 (ix2 p q) e = ix2 p e := fun e =>
    funext fun a => Fin.ext (by match a with | ⟨0, _⟩ => rfl | ⟨1, _⟩ => rfl)
  have hr : ∀ e : Fin 128, idx_main_v10 (ridx_main_v11 (ix2 p q) e) = ix2 q e := fun e =>
    funext fun a => Fin.ext (by match a with | ⟨0, _⟩ => rfl | ⟨1, _⟩ => rfl)
  have hb : idx_main_v12 (idx_main_v13 (ix2 p q)) = ix1 q :=
    funext fun a => Fin.ext (by match a with | ⟨0, _⟩ => rfl)
  rw [val_main_v14_apply, val_main_v11_apply, val_main_v13_apply, val_main_v12_apply, project_apply, hb]
  simp only [val_main_v10_apply, hl, hr, Ideal.addf_def]

end Cert.ReferenceIdeal.RefValue

end
-- ==== Proof.lean ====
/-
  A graph-convolution layer computed two ways, equal on the extended reals.

  Both programs take node features `x` (40000 × 128), the edges' source and destination indices, weights `W`
  (128 × 128) and a bias `b` (128). Both first aggregate: every edge carries its source node's feature row, and each
  destination node sums the rows arriving at it — the SAME operations in both programs, so the aggregated array `H` is
  one term, named and never opened. Both then return `H · Wᵀ + b`, whose entry `(p, q)` is the sum over the 128 input
  features `e` of `H (p, e) * W (q, e)`, plus `b q` (Proof/Projection.lean).

  The kernel computes it block by block: ten blocks of 4000 rows, each the block's rows of `H` multiplied against the
  ROWS of `W` into a zero accumulator, the operands first rounded to a narrower format — the identity on the
  extended reals — and the bias row added (Proof/BlockProduct.lean); the ten blocks tile the result
  (Proof/RowBlocks.lean). The reference transposes `W` and contracts `H`'s columns with the transposed weights' rows,
  which reads the same entries of `W` (Proof/ReferenceProjection.lean). The two sums are term by term the same, so no
  property of addition or multiplication on the extended reals is needed, and the inputs' finiteness is never used.
  Nothing was rewritten when the kernel was idealized, so that claim is trivial.
-/
import proofs.«127670_j16449724744840_2_alg».proof.Defs
import proofs.«127670_j16449724744840_2_alg».proof.Proof.Gen.Kernel
import proofs.«127670_j16449724744840_2_alg».proof.Proof.Gen.Kernel.Frame
import proofs.«127670_j16449724744840_2_alg».proof.Proof.Gen.KernelIdeal
import proofs.«127670_j16449724744840_2_alg».proof.Proof.Gen.KernelIdeal.Frame
import proofs.«127670_j16449724744840_2_alg».proof.Proof.Gen.ReferenceIdeal
import proofs.«127670_j16449724744840_2_alg».proof.Proof.Gen.KernelIdeal.Value
import proofs.«127670_j16449724744840_2_alg».proof.Proof.Gen.ReferenceIdeal.Run
import proofs.«127670_j16449724744840_2_alg».proof.Proof.Gen.ReferenceIdeal.Read
import proofs.«127670_j16449724744840_2_alg».proof.Proof.Gen.Pre_finite_inputs
import proofs.«127670_j16449724744840_2_alg».proof.Proof.RegionEntry
import proofs.«127670_j16449724744840_2_alg».proof.Proof.RowBlocks
import proofs.«127670_j16449724744840_2_alg».proof.Proof.ReferenceProjection

noncomputable section

namespace Cert.Proof

open Idealize.ShloMosaic Idealize.SL.Sem

/-- The reference aggregates by the same operations as the kernel: its aggregation stage is the kernel's named
    aggregate (the same gather and the same accumulating scatter, of the same operands). -/
theorem aggregate_eq (x : (⟨Cert.ReferenceIdeal.S40000x128, .f32⟩ : BufTy).Contents (Elt Ideal))
    (src dst : (⟨Cert.ReferenceIdeal.S640000, .i32⟩ : BufTy).Contents (Elt Ideal)) :
    Cert.ReferenceIdeal.Read.val_main_v9 (F := Ideal) x src dst = Cert.KernelIdeal.RegionEntry.aggregate x src dst := rfl

/-- The word-level kernel runs and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference runs and leaves its arguments as they were: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Idealizing the kernel rewrote nothing. -/
theorem preserves : Cert.preserves_Kernel_KernelIdeal := trivial

/-- From memories agreeing on the arguments both programs end with the projection of the aggregated features: the
    kernel by its blocks, the reference by its stages read at an index, the aggregation the same term in both. -/
theorem algebraic : Cert.algebraic_KernelIdeal_ReferenceIdeal := by
  intro m ρ m' ρ' _ hagree
  refine ⟨_, Cert.KernelIdeal.RowBlocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.result_eq, aggregate_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
